-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x2500000 : Shape := ⟨2, ![2, 2500000]⟩
abbrev S2x32 : Shape := ⟨2, ![2, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S32x2 .f32) (main_arg6 : FVec F S32x2 .f32) (main_arg7 : FVec F S2 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x2 .f32 := Host.absf main_arg5
  let main_cst_6 : FVec F S_ .f32 := constant S_ .f32 0x7F800000#32
  let main_v20 : FVec F S32x2 .f32 := broadcastInDim S32x2 ![] bcast_S_S32x2 main_cst_6
  let main_v21 : IVec S32x2 1 := cmpf .olt main_v19 main_v20
  let main_c_7 : IVec S_ 1 := constantI S_ 1 1#1
  let main_v22 : IVec S_ 1 := (fun x v => Host.reduce IntOp.andi x v reducesTo_S32x2_S_d0_1 h_S_) main_v21 main_c_7
  let main_v23 : IVec S_ 1 := andi main_v18 main_v22
  let main_v24 : FVec F S32x2 .f32 := Host.absf main_arg6
  let main_cst_8 : FVec F S_ .f32 := constant S_ .f32 0x7F800000#32
  let main_v25 : FVec F S32x2 .f32 := broadcastInDim S32x2 ![] bcast_S_S32x2 main_cst_8
  let main_v26 : IVec S32x2 1 := cmpf .olt main_v24 main_v25
  let main_c_9 : IVec S_ 1 := constantI S_ 1 1#1
  let main_v27 : IVec S_ 1 := (fun x v => Host.reduce IntOp.andi x v reducesTo_S32x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x2 .f32) (main_arg1 : IVec S2x2500000 32) (main_arg2 : FVec F S2x32 .f32) (main_arg3 : FVec F S2x32 .f32) (main_arg4 : FVec F S32 .f32) (main_arg5 : FVec F S32x2 .f32) (main_arg6 : FVec F S32x2 .f32) (main_arg7 : FVec F S2 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x32 .f32 := Host.absf main_arg2
  let main_cst_0 : FVec F S_ .f32 := constant S_ .f32 0x7F800000#32
  let main_v5 : FVec F S2x32 .f32 := broadcastInDim S2x32 ![] bcast_S_S2x32 main_cst_0
  let main_v6 : IVec S2x32 1 := cmpf .olt main_v4 main_v5
  let main_c_1 : IVec S_ 1 := constantI S_ 1 1#1
  let main_v7 : IVec S_ 1 := (fun x v => Host.reduce IntOp.andi x v reducesTo_S2x32_S_d0_1 h_S_) main_v6 main_c_1
  let main_v8 : IVec S_ 1 := andi main_v3 main_v7
  let main_v9 : FVec F S2x32 .f32 := Host.absf main_arg3
  let main_cst_2 : FVec F S_ .f32 := constant S_ .f32 0x7F800000#32
  let main_v10 : FVec F S2x32 .f32 := broadcastInDim S2x32 ![] bcast_S_S2x32 main_cst_2
  let main_v11 : IVec S2x32 1 := cmpf .olt main_v9 main_v10
  let main_c_3 : IVec S_ 1 := constantI S_ 1 1#1
  let main_v12 : IVec S_ 1 := (fun x v => Host.reduce IntOp.andi x v reducesTo_S2x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_v13 main_v16
-- ==== Kernel.lean ====
abbrev S100000x2 : Shape := ⟨2, ![100000, 2]⟩
abbrev S2x2500000 : Shape := ⟨2, ![2, 2500000]⟩
abbrev S2x32 : Shape := ⟨2, ![2, 32]⟩
abbrev S32 : Shape := ⟨1, ![32]⟩
abbrev S32x2 : Shape := ⟨2, ![32, 2]⟩
abbrev S2 : Shape := ⟨1, ![2]⟩
abbrev S1x2500000 : Shape := ⟨2, ![1, 2500000]⟩
abbrev S2500000 : Shape := ⟨1, ![2500000]⟩
abbrev S_ : Shape := ⟨0, ![]⟩
abbrev S100000 : Shape := ⟨1, ![100000]⟩
abbrev S2500000x1 : Shape := ⟨2, ![2500000, 1]⟩
abbrev S100000x1 : Shape := ⟨2, ![100000, 1]⟩
abbrev S2500000x2 : Shape := ⟨2, ![2500000, 2]⟩
abbrev S1x32 : Shape := ⟨2, ![1, 32]⟩
abbrev S100000x32 : Shape := ⟨2, ![100000, 32]⟩
abbrev S10000x2 : Shape := ⟨2, ![10000, 2]⟩
abbrev S10000x32 : Shape := ⟨2, ![10000, 32]⟩
abbrev S2500000x32 : Shape := ⟨2, ![2500000, 32]⟩
abbrev S1x2 : Shape := ⟨2, ![1, 2]⟩
abbrev S10000 : Shape := ⟨1, ![10000]⟩
abbrev S10000x1 : Shape := ⟨2, ![10000, 1]⟩

abbrev nBuf : Space → Nat
  | .hbm => 59
  | .vmem => 18
  | .smem => 0
  | _ => 0

abbrev bufTy : (tb : Table) → Fin (tcTables nBuf tb) → BufTy
  | .hbm, ⟨0, _⟩ => ⟨S100000x2, .f32⟩
  | .hbm, ⟨1, _⟩ => ⟨S2x2500000, .i32⟩
  | .hbm, ⟨2, _⟩ => ⟨S2x32, .f32⟩
  | .hbm, ⟨3, _⟩ => ⟨S2x32, .f32⟩
  | .hbm, ⟨4, _⟩ => ⟨S32, .f32⟩
  | .hbm, ⟨5, _⟩ => ⟨S32x2, .f32⟩
  | .hbm, ⟨6, _⟩ => ⟨S32x2, .f32⟩
  | .hbm, ⟨7, _⟩ => ⟨S2, .f32⟩
  | .hbm, ⟨8, _⟩ => ⟨S1x2500000, .i32⟩
  | .hbm, ⟨9, _⟩ => ⟨S2500000, .i32⟩
  | .hbm, ⟨10, _⟩ => ⟨S1x2500000, .i32⟩
  | .hbm, ⟨11, _⟩ => ⟨S2500000, .i32⟩
  | .hbm, ⟨12, _⟩ => ⟨S_, .f32⟩
  | .hbm, ⟨13, _⟩ => ⟨S2500000, .f32⟩
  | .hbm, ⟨14, _⟩ => ⟨S_, .f32⟩
  | .hbm, ⟨15, _⟩ => ⟨S100000, .f32⟩
  | .hbm, ⟨16, _⟩ => ⟨S2500000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S2500000, .i32⟩
  | .hbm, ⟨27, _⟩ => ⟨S2500000, .i1⟩
  | .hbm, ⟨28, _⟩ => ⟨S_, .i32⟩
  | .hbm, ⟨29, _⟩ => ⟨S2500000, .i32⟩
  | .hbm, ⟨30, _⟩ => ⟨S2500000, .i32⟩
  | .hbm, ⟨31, _⟩ => ⟨S2500000, .i32⟩
  | .hbm, ⟨32, _⟩ => ⟨S2500000x1, .i32⟩
  | .hbm, ⟨33, _⟩ => ⟨S2500000x2, .f32⟩
  | .hbm, ⟨34, _⟩ => ⟨S_, .f32⟩
  | .hbm, ⟨35, _⟩ => ⟨S100000x2, .f32⟩
  | .hbm, ⟨36, _⟩ => ⟨S2500000x1, .i32⟩
  | .hbm, ⟨37, _⟩ => ⟨S100000x2, .f32⟩
  | .hbm, ⟨38, _⟩ => ⟨S100000x2, .f32⟩
  | .hbm, ⟨39, _⟩ => ⟨S100000x2, .f32⟩
  | .hbm, ⟨40, _⟩ => ⟨S1x32, .f32⟩
  | .hbm, ⟨41, _⟩ => ⟨S100000x32, .f32⟩
  | .hbm, ⟨42, _⟩ => ⟨S_, .i32⟩
  | .hbm, ⟨43, _⟩ => ⟨S2500000, .i32⟩
  | .hbm, ⟨44, _⟩ => ⟨S2500000, .i1⟩
  | .hbm, ⟨45, _⟩ => ⟨S_, .i32⟩
  | .hbm, ⟨46, _⟩ => ⟨S2500000, .i32⟩
  | .hbm, ⟨47, _⟩ => ⟨S2500000, .i32⟩
  | .hbm, ⟨48, _⟩ => ⟨S2500000, .i32⟩
  | .hbm, ⟨49, _⟩ => ⟨S2500000x1, .i32⟩
  | .hbm, ⟨50, _⟩ => ⟨S2500000x32, .f32⟩
  | .hbm, ⟨51, _⟩ => ⟨S_, .f32⟩
  | .hbm, ⟨52, _⟩ => ⟨S100000x32, .f32⟩
  | .hbm, ⟨53, _⟩ => ⟨S2500000x1, .i32⟩
  | .hbm, ⟨54, _⟩ => ⟨S100000x32, .f32⟩
  | .hbm, ⟨55, _⟩ => ⟨S100000x32, .f32⟩
  | .hbm, ⟨56, _⟩ => ⟨S100000x32, .f32⟩
  | .hbm, ⟨57, _⟩ => ⟨S1x2, .f32⟩
  | .hbm, ⟨58, _⟩ => ⟨S100000x2, .f32⟩
  | .local _ .vmem, ⟨0, _⟩ => ⟨S10000x2, .f32⟩
  | .local _ .vmem, ⟨1, _⟩ => ⟨S10000x2, .f32⟩
  | .local _ .vmem, ⟨2, _⟩ => ⟨S10000x2, .f32⟩
  | .local _ .vmem, ⟨3, _⟩ => ⟨S10000x2, .f32⟩
  | .local _ .vmem, ⟨4, _⟩ => ⟨S2x32, .f32⟩
  | .local _ .vmem, ⟨5, _⟩ => ⟨S2x32, .f32⟩
  | .local _ .vmem, ⟨6, _⟩ => ⟨S1x32, .f32⟩
  | .local _ .vmem, ⟨7, _⟩ => ⟨S10000x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S32x2, .f32⟩
  | .local _ .vmem, ⟨14, _⟩ => ⟨S32x2, .f32⟩
  | .local _ .vmem, ⟨15, _⟩ => ⟨S1x2, .f32⟩
  | .local _ .vmem, ⟨16, _⟩ => ⟨S10000x2, .f32⟩
  | .local _ .vmem, ⟨17, _⟩ => ⟨S10000x2, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  bcast_S_S2500000 : S_.BroadcastsInDim S2500000 (![] : Fin 0 → Fin S2500000.rank)
  bcast_S_S100000 : S_.BroadcastsInDim S100000 (![] : Fin 0 → Fin S100000.rank)
  bcast_S2500000_S2500000x1_0 : S2500000.BroadcastsInDim S2500000x1 (![0] : Fin 1 → Fin S2500000x1.rank)
  bcast_S100000_S100000x1_0 : S100000.BroadcastsInDim S100000x1 (![0] : Fin 1 → Fin S100000x1.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  shapeCasts_S32_S1x32 : S32.ShapeCasts S1x32
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  bitsLt_bf16_f32 : FTy.bits .bf16 < FTy.bits .f32
  inb_S2x32_S2x32_0_0 : ∀ a, (![0, 0] : Fin 2 → Nat) a + S2x32.size a ≤ S2x32.size a
  h_S2x32 : 0 < S2x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S2_S1x2 : S2.ShapeCasts S1x2
  shapeCasts_S10000x32_S10000x32 : S10000x32.ShapeCasts S10000x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  reduces_S10000x2_S10000 : S10000x2.Reduces [1] S10000
  shapeCasts_S10000_S10000x1 : S10000.ShapeCasts S10000x1
  broadcasts_S10000x1_S10000x2 : S10000x1.Broadcasts S10000x2
  scatter_S100000_S2500000x1_S2500000_n_0_0_1_wf : ScatterDims.WF S100000 S2500000x1 S2500000 [] [0] [0] 1
  gather_S100000x2_S2500000x1_S2500000x2_1_0_n_n_0_1_12_wf : GatherDims.WF S100000x2 S2500000x1 S2500000x2 [1] [0] [] [0] [] 1 ![1, 2]
  scatter_S100000x2_S2500000x1_S2500000x2_1_0_0_1_wf : ScatterDims.WF S100000x2 S2500000x1 S2500000x2 [1] [0] [0] 1
  dot_S10000x2_S2x32_S10000x32_1_0_0_1_n_n_wf : DotDims.WF S10000x2 S2x32 S10000x32 [1] [0] [0] [1] [] []
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1
  dot_S10000x32_S32x2_S10000x2_1_0_0_1_n_n_wf : DotDims.WF S10000x32 S32x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S100000x2.size a
  hwx0_0 : ∀ i : grid0.Coords, EltTy.bits .f32 = 32 ∨ (Rect.block (s := S100000x2) S10000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x2.size a ≤ S100000x2.size a
  hwx0_1 : ∀ i : grid0.Coords, EltTy.bits .f32 = 32 ∨ (Rect.block (s := S100000x2) S10000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x32.size a ≤ S2x32.size a
  hwx0_2 : ∀ i : grid0.Coords, EltTy.bits .f32 = 32 ∨ (Rect.block (s := S2x32) S2x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x32.size a ≤ S2x32.size a
  hwx0_3 : ∀ i : grid0.Coords, EltTy.bits .f32 = 32 ∨ (Rect.block (s := S2x32) S2x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x32.size a ≤ S100000x32.size a
  hwx0_5 : ∀ i : grid0.Coords, EltTy.bits .f32 = 32 ∨ (Rect.block (s := S100000x32) S10000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x2.size a ≤ S32x2.size a
  hwx1_2 : ∀ i : grid1.Coords, EltTy.bits .f32 = 32 ∨ (Rect.block (s := S32x2) S32x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x2.size a ≤ S32x2.size a
  hwx1_3 : ∀ i : grid1.Coords, EltTy.bits .f32 = 32 ∨ (Rect.block (s := S32x2) S32x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2.size a ≤ S1x2.size a
  hwx1_4 : ∀ i : grid1.Coords, EltTy.bits .f32 = 32 ∨ (Rect.block (s := S1x2) S1x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x2.size a ≤ S100000x2.size a
  hwx1_5 : ∀ i : grid1.Coords, EltTy.bits .f32 = 32 ∨ (Rect.block (s := S100000x2) S10000x2.size (cc1_transform_5 i) (hinb1_5 i)).WholeWords (EltTy.packing .f32)

variable [Facts₀]

def scatter_S100000_S2500000x1_S2500000_n_0_0_1 : ScatterDims S100000 S2500000x1 S2500000 where
  updateWindowDims := []
  insertedWindowDims := [0]
  scatterDimsToOperandDims := [0]
  indexVectorDim := 1
  wf := scatter_S100000_S2500000x1_S2500000_n_0_0_1_wf
def gather_S100000x2_S2500000x1_S2500000x2_1_0_n_n_0_1_12 : GatherDims S100000x2 S2500000x1 S2500000x2 where
  offsetDims := [1]
  collapsedSliceDims := [0]
  operandBatchingDims := []
  startIndicesBatchingDims := []
  startIndexMap := [0]
  indexVectorDim := 1
  sliceSizes := ![1, 2]
  wf := gather_S100000x2_S2500000x1_S2500000x2_1_0_n_n_0_1_12_wf
def scatter_S100000x2_S2500000x1_S2500000x2_1_0_0_1 : ScatterDims S100000x2 S2500000x1 S2500000x2 where
  updateWindowDims := [1]
  insertedWindowDims := [0]
  scatterDimsToOperandDims := [0]
  indexVectorDim := 1
  wf := scatter_S100000x2_S2500000x1_S2500000x2_1_0_0_1_wf
def dot_S10000x2_S2x32_S10000x32_1_0_0_1_n_n : DotDims S10000x2 S2x32 S10000x32 where
  lhsContracting := [1]
  rhsContracting := [0]
  lhsNonContracting := [0]
  rhsNonContracting := [1]
  lhsBatch := []
  rhsBatch := []
  wf := dot_S10000x2_S2x32_S10000x32_1_0_0_1_n_n_wf
def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf
def dot_S10000x32_S32x2_S10000x2_1_0_0_1_n_n : DotDims S10000x32 S32x2 S10000x2 where
  lhsContracting := [1]
  rhsContracting := [0]
  lhsNonContracting := [0]
  rhsNonContracting := [1]
  lhsBatch := []
  rhsBatch := []
  wf := dot_S10000x32_S32x2_S10000x2_1_0_0_1_n_n_wf

abbrev win0_0 : Pipeline.Window sig grid0 :=
  Pipeline.Window.ofSpec (Memref.whole main_v24) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S32x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S10000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x2 : Shape := ⟨2, ![100000, 2]⟩
abbrev S2x2500000 : Shape := ⟨2, ![2, 2500000]⟩
abbrev S2x32 : Shape := ⟨2, ![2, 32]⟩
abbrev S32 : Shape := ⟨1, ![32]⟩
abbrev S32x2 : Shape := ⟨2, ![32, 2]⟩
abbrev S2 : Shape := ⟨1, ![2]⟩
abbrev S1x2500000 : Shape := ⟨2, ![1, 2500000]⟩
abbrev S2500000 : Shape := ⟨1, ![2500000]⟩
abbrev S_ : Shape := ⟨0, ![]⟩
abbrev S100000 : Shape := ⟨1, ![100000]⟩
abbrev S2500000x1 : Shape := ⟨2, ![2500000, 1]⟩
abbrev S100000x1 : Shape := ⟨2, ![100000, 1]⟩
abbrev S2500000x2 : Shape := ⟨2, ![2500000, 2]⟩
abbrev S100000x32 : Shape := ⟨2, ![100000, 32]⟩
abbrev S1x32 : Shape := ⟨2, ![1, 32]⟩
abbrev S2500000x32 : Shape := ⟨2, ![2500000, 32]⟩
abbrev S1x2 : Shape := ⟨2, ![1, 2]⟩

abbrev nBuf : Space → Nat
  | .hbm => 85
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S2x2500000, .i32⟩
  | .hbm, ⟨2, _⟩ => ⟨S2x32, .f32⟩
  | .hbm, ⟨3, _⟩ => ⟨S2x32, .f32⟩
  | .hbm, ⟨4, _⟩ => ⟨S32, .f32⟩
  | .hbm, ⟨5, _⟩ => ⟨S32x2, .f32⟩
  | .hbm, ⟨6, _⟩ => ⟨S32x2, .f32⟩
  | .hbm, ⟨7, _⟩ => ⟨S2, .f32⟩
  | .hbm, ⟨8, _⟩ => ⟨S1x2500000, .i32⟩
  | .hbm, ⟨9, _⟩ => ⟨S2500000, .i32⟩
  | .hbm, ⟨10, _⟩ => ⟨S1x2500000, .i32⟩
  | .hbm, ⟨11, _⟩ => ⟨S2500000, .i32⟩
  | .hbm, ⟨12, _⟩ => ⟨S_, .f32⟩
  | .hbm, ⟨13, _⟩ => ⟨S2500000, .f32⟩
  | .hbm, ⟨14, _⟩ => ⟨S_, .f32⟩
  | .hbm, ⟨15, _⟩ => ⟨S100000, .f32⟩
  | .hbm, ⟨16, _⟩ => ⟨S2500000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S2500000, .i32⟩
  | .hbm, ⟨27, _⟩ => ⟨S2500000, .i1⟩
  | .hbm, ⟨28, _⟩ => ⟨S_, .i32⟩
  | .hbm, ⟨29, _⟩ => ⟨S2500000, .i32⟩
  | .hbm, ⟨30, _⟩ => ⟨S2500000, .i32⟩
  | .hbm, ⟨31, _⟩ => ⟨S2500000, .i32⟩
  | .hbm, ⟨32, _⟩ => ⟨S2500000x1, .i32⟩
  | .hbm, ⟨33, _⟩ => ⟨S2500000x2, .f32⟩
  | .hbm, ⟨34, _⟩ => ⟨S_, .f32⟩
  | .hbm, ⟨35, _⟩ => ⟨S100000x2, .f32⟩
  | .hbm, ⟨36, _⟩ => ⟨S2500000x1, .i32⟩
  | .hbm, ⟨37, _⟩ => ⟨S100000x2, .f32⟩
  | .hbm, ⟨38, _⟩ => ⟨S100000x2, .f32⟩
  | .hbm, ⟨39, _⟩ => ⟨S100000x2, .f32⟩
  | .hbm, ⟨40, _⟩ => ⟨S100000x32, .f32⟩
  | .hbm, ⟨41, _⟩ => ⟨S100000x32, .f32⟩
  | .hbm, ⟨42, _⟩ => ⟨S100000x32, .f32⟩
  | .hbm, ⟨43, _⟩ => ⟨S1x32, .f32⟩
  | .hbm, ⟨44, _⟩ => ⟨S100000x32, .f32⟩
  | .hbm, ⟨45, _⟩ => ⟨S100000x32, .f32⟩
  | .hbm, ⟨46, _⟩ => ⟨S_, .f32⟩
  | .hbm, ⟨47, _⟩ => ⟨S100000x32, .f32⟩
  | .hbm, ⟨48, _⟩ => ⟨S100000x32, .f32⟩
  | .hbm, ⟨49, _⟩ => ⟨S_, .i32⟩
  | .hbm, ⟨50, _⟩ => ⟨S2500000, .i32⟩
  | .hbm, ⟨51, _⟩ => ⟨S2500000, .i1⟩
  | .hbm, ⟨52, _⟩ => ⟨S_, .i32⟩
  | .hbm, ⟨53, _⟩ => ⟨S2500000, .i32⟩
  | .hbm, ⟨54, _⟩ => ⟨S2500000, .i32⟩
  | .hbm, ⟨55, _⟩ => ⟨S2500000, .i32⟩
  | .hbm, ⟨56, _⟩ => ⟨S2500000x1, .i32⟩
  | .hbm, ⟨57, _⟩ => ⟨S2500000x32, .f32⟩
  | .hbm, ⟨58, _⟩ => ⟨S_, .f32⟩
  | .hbm, ⟨59, _⟩ => ⟨S100000x32, .f32⟩
  | .hbm, ⟨60, _⟩ => ⟨S2500000x1, .i32⟩
  | .hbm, ⟨61, _⟩ => ⟨S100000x32, .f32⟩
  | .hbm, ⟨62, _⟩ => ⟨S100000x32, .f32⟩
  | .hbm, ⟨63, _⟩ => ⟨S100000x32, .f32⟩
  | .hbm, ⟨64, _⟩ => ⟨S100000x2, .f32⟩
  | .hbm, ⟨65, _⟩ => ⟨S100000x2, .f32⟩
  | .hbm, ⟨66, _⟩ => ⟨S100000x2, .f32⟩
  | .hbm, ⟨67, _⟩ => ⟨S1x2, .f32⟩
  | .hbm, ⟨68, _⟩ => ⟨S100000x2, .f32⟩
  | .hbm, ⟨69, _⟩ => ⟨S100000x2, .f32⟩
  | .hbm, ⟨70, _⟩ => ⟨S_, .f32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x2, .f32⟩
  | .hbm, ⟨77, _⟩ => ⟨S100000x2, .f32⟩
  | .hbm, ⟨78, _⟩ => ⟨S100000x2, .f32⟩
  | .hbm, ⟨79, _⟩ => ⟨S_, .f32⟩
  | .hbm, ⟨80, _⟩ => ⟨S100000, .f32⟩
  | .hbm, ⟨81, _⟩ => ⟨S100000x1, .f32⟩
  | .hbm, ⟨82, _⟩ => ⟨S100000x1, .f32⟩
  | .hbm, ⟨83, _⟩ => ⟨S100000x2, .f32⟩
  | .hbm, ⟨84, _⟩ => ⟨S100000x2, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_call1_cst_0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_cst_1 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_v50 : Ref sig .tc := ⟨.hbm, 84, rfl⟩

abbrev nD : Nat := 1
abbrev τ : Topo := Topo.v7x

variable {F : FTy → Type} [FloatOps F]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  bcast_S_S2500000 : S_.BroadcastsInDim S2500000 (![] : Fin 0 → Fin S2500000.rank)
  bcast_S_S100000 : S_.BroadcastsInDim S100000 (![] : Fin 0 → Fin S100000.rank)
  bcast_S2500000_S2500000x1_0 : S2500000.BroadcastsInDim S2500000x1 (![0] : Fin 1 → Fin S2500000x1.rank)
  bcast_S100000_S100000x1_0 : S100000.BroadcastsInDim S100000x1 (![0] : Fin 1 → Fin S100000x1.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  scatter_S100000_S2500000x1_S2500000_n_0_0_1_wf : ScatterDims.WF S100000 S2500000x1 S2500000 [] [0] [0] 1
  gather_S100000x2_S2500000x1_S2500000x2_1_0_n_n_0_1_12_wf : GatherDims.WF S100000x2 S2500000x1 S2500000x2 [1] [0] [] [0] [] 1 ![1, 2]
  scatter_S100000x2_S2500000x1_S2500000x2_1_0_0_1_wf : ScatterDims.WF S100000x2 S2500000x1 S2500000x2 [1] [0] [0] 1
  dot_S100000x2_S2x32_S100000x32_1_0_0_1_n_n_wf : DotDims.WF S100000x2 S2x32 S100000x32 [1] [0] [0] [1] [] []
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1
  dot_S100000x32_S32x2_S100000x2_1_0_0_1_n_n_wf : DotDims.WF S100000x32 S32x2 S100000x2 [1] [0] [0] [1] [] []

variable [Facts₀]

def scatter_S100000_S2500000x1_S2500000_n_0_0_1 : ScatterDims S100000 S2500000x1 S2500000 where
  updateWindowDims := []
  insertedWindowDims := [0]
  scatterDimsToOperandDims := [0]
  indexVectorDim := 1
  wf := scatter_S100000_S2500000x1_S2500000_n_0_0_1_wf
def gather_S100000x2_S2500000x1_S2500000x2_1_0_n_n_0_1_12 : GatherDims S100000x2 S2500000x1 S2500000x2 where
  offsetDims := [1]
  collapsedSliceDims := [0]
  operandBatchingDims := []
  startIndicesBatchingDims := []
  startIndexMap := [0]
  indexVectorDim := 1
  sliceSizes := ![1, 2]
  wf := gather_S100000x2_S2500000x1_S2500000x2_1_0_n_n_0_1_12_wf
def scatter_S100000x2_S2500000x1_S2500000x2_1_0_0_1 : ScatterDims S100000x2 S2500000x1 S2500000x2 where
  updateWindowDims := [1]
  insertedWindowDims := [0]
  scatterDimsToOperandDims := [0]
  indexVectorDim := 1
  wf := scatter_S100000x2_S2500000x1_S2500000x2_1_0_0_1_wf
def dot_S100000x2_S2x32_S100000x32_1_0_0_1_n_n : DotDims S100000x2 S2x32 S100000x32 where
  lhsContracting := [1]
  rhsContracting := [0]
  lhsNonContracting := [0]
  rhsNonContracting := [1]
  lhsBatch := []
  rhsBatch := []
  wf := dot_S100000x2_S2x32_S100000x32_1_0_0_1_n_n_wf
def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf

class Facts : Prop extends Facts₀ where

variable [Facts]
-- ==== Proof.KernelRun.lean ====
/-
  The idealized kernel's run with its result named.

  @main is four segments: the host operations before the first kernel, the first kernel's region, the host operations
  between the kernels, the second kernel's region.  The buffer contents at each boundary are a fold from the launch
  memory (a stretch of host operations applies them; a region leaves its arrays at what its write-backs fold to and
  every other buffer alone).  Every weakly fair execution terminates with every unscoped buffer at the last boundary's
  contents; read at the result buffer that names the result, read at the argument buffers it says they are as launched.
-/
import proofs.«163490_j22548578304372_1_alg».proof.Proof.Gen.KernelIdeal.Frame

set_option maxRecDepth 16384

noncomputable section

namespace Cert.KernelIdeal.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Dense

end
-- ==== Proof.Spec.lean ====
/-
  The two dense stages of a two-layer mean-aggregation graph network, entry by entry, over the extended reals.

  A stage takes the aggregated neighbour features `a` and the nodes' own features `x`, both `[R, K]`, two weight
  matrices `wl`, `wr` of shape `[K, C]` and a bias row `b`, and forms `a · wl + x · wr + b`: entry `(p, c)` is
  `Σ_k a (p, k) · wl (k, c) + Σ_k x (p, k) · wr (k, c) + b c`.  The first stage rectifies that entry (its maximum with
  zero); the second takes the log-softmax of each row: with `t` the row's greatest entry (folded from −∞), entry `c`
  becomes `(y c − t) − log Σ_k exp (y k − t)`.  A row of the result depends on the same row of `a` and `x` only, so
  a computation done on blocks of rows and one done on the whole array agree entry by entry.
-/
import Idealize.ShloMosaic.PureOps.Ideal.Laws
import Idealize.ShloMosaic.Lib.ValueIdx

noncomputable section

open scoped BigOperators

namespace Cert.Sage

open Idealize.ShloMosaic Idealize.ShloMosaic.ValueIdx

variable {R K C : ℕ}

/-- Entry `(p, c)` of `a · wl + x · wr + b`. -/
def affine (a x : (⟨2, ![R, K]⟩ : Shape).Idx → EReal) (wl wr : (⟨2, ![K, C]⟩ : Shape).Idx → EReal) (b : Fin C → EReal)
    (p : Fin R) (c : Fin C) : EReal :=
  (∑ k : Fin K, a (ix2 p k) * wl (ix2 k c)) + (∑ k : Fin K, x (ix2 p k) * wr (ix2 k c)) + b c

/-- The rectified stage: each entry of `a · wl + x · wr + b` or zero, whichever is greater. -/
def hidden (a x : (⟨2, ![R, K]⟩ : Shape).Idx → EReal) (wl wr : (⟨2, ![K, C]⟩ : Shape).Idx → EReal) (b : Fin C → EReal) :
    (⟨2, ![R, C]⟩ : Shape).Idx → EReal :=
  fun j => max (affine a x wl wr b (j 0) (j 1)) (Ideal.ofBits .f32 0x00000000#32)

theorem hidden_ix2 (a x : (⟨2, ![R, K]⟩ : Shape).Idx → EReal) (wl wr : (⟨2, ![K, C]⟩ : Shape).Idx → EReal) (b : Fin C → EReal)
    (p : Fin R) (c : Fin C) :
    hidden a x wl wr b (ix2 p c) = max (affine a x wl wr b p c) (Ideal.ofBits .f32 0x00000000#32) := rfl

/-- A row's greatest entry, folded from −∞. -/
def rowTop (y : Fin C → EReal) : EReal :=
  (Finset.univ : Finset (Fin C)).fold max (Ideal.ofBits .f32 0xFF800000#32) y

/-- The log-softmax of a row, at column `c`. -/
def logSoftmaxRow (y : Fin C → EReal) (c : Fin C) : EReal :=
  (y c - rowTop y) - Ideal.log (∑ k : Fin C, Ideal.exp (y k - rowTop y))

/-- The second stage: the log-softmax of each row of `a · wl + x · wr + b`. -/
def logits (a x : (⟨2, ![R, K]⟩ : Shape).Idx → EReal) (wl wr : (⟨2, ![K, C]⟩ : Shape).Idx → EReal) (b : Fin C → EReal) :
    (⟨2, ![R, C]⟩ : Shape).Idx → EReal :=
  fun j => logSoftmaxRow (affine a x wl wr b (j 0)) (j 1)

theorem logits_ix2 (a x : (⟨2, ![R, K]⟩ : Shape).Idx → EReal) (wl wr : (⟨2, ![K, C]⟩ : Shape).Idx → EReal) (b : Fin C → EReal)
    (p : Fin R) (c : Fin C) :
    logits a x wl wr b (ix2 p c) = logSoftmaxRow (affine a x wl wr b p) c := rfl

/-- The greatest entry of a row is no less than the value the fold starts from, so taking the maximum with that value
    once more changes nothing. -/
theorem max_start_rowTop (y : Fin C → EReal) : max (Ideal.ofBits .f32 0xFF800000#32) (rowTop y) = rowTop y :=
  max_eq_right ((Finset.le_fold_max _).mpr (Or.inl le_rfl))

end Cert.Sage

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.HiddenPayload.lean ====
/-
  What the first kernel's body stores, entry by entry.

  On a block of 10000 rows the body forms `agg · wl + root · wr + bias` — two products into the zero accumulator, added,
  plus the bias row spread down the rows — and keeps each entry or zero, whichever is greater.  The narrowing of the
  operands before the products changes nothing over the extended reals.  So entry `(p, c)` of the stored block is the
  rectified entry `(p, c)` of the dense stage on that block's rows.
-/
import proofs.«163490_j22548578304372_1_alg».proof.Proof.Gen.KernelIdeal.Skeleton
import proofs.«163490_j22548578304372_1_alg».proof.Proof.Spec
import proofs.«163490_j22548578304372_1_alg».proof.Proof.LibPlainDot
import Idealize.ShloMosaic.Lib.Pipeline.Value
import Idealize.ShloMosaic.Lib.ValueLayout

noncomputable section

open scoped BigOperators

namespace Cert.KernelIdeal.Dense

open Idealize.ShloMosaic Idealize.ShloMosaic.ValueIdx Cert.KernelIdeal Cert.KernelIdeal.Gen

/-- The first kernel's contraction is a plain `[10000, 2] × [2, 32]` product. -/
theorem plain0 : Cert.LibPlainDot.Plain dot_S10000x2_S2x32_S10000x32_1_0_0_1_n_n := ⟨rfl, rfl, rfl, rfl, rfl, rfl⟩

/-- Entry `(p, c)` of the block the first kernel stores. -/
theorem pay_hidden (x0 x1 : Vec Ideal S10000x2 .f32) (x2 x3 : Vec Ideal S2x32 .f32) (x4 : Vec Ideal S1x32 .f32)
    (p : Fin 10000) (c : Fin 32) :
    k0_pay1 (F := Ideal) x0 x1 x2 x3 x4 (ix2 p c)
      = max (Cert.Sage.affine x0 x1 x2 x3 (fun q => x4 (ix2 (0 : Fin 1) q)) p c) (Ideal.ofBits .f32 0x00000000#32) := by
  unfold k0_pay1 Cert.Sage.affine
  refine congrArg₂ max (congrArg₂ (· + ·) (congrArg₂ (· + ·) ?_ ?_) ?_) rfl
  · refine (Ideal.matmul_constant_zero_apply _ none _ _ (ix2 p c)).trans ?_
    refine Eq.trans ?_ (plain0.sum_eq x0 x2 p c)
    rw [shapeCast_self]; rfl
  · refine (Ideal.matmul_constant_zero_apply _ none _ _ (ix2 p c)).trans ?_
    exact plain0.sum_eq x1 x3 p c
  · exact (broadcastTo_1b_ab_apply _ broadcasts_S1x32_S10000x32 p c).trans (congrFun (shapeCast_self x4 _) _)

end Cert.KernelIdeal.Dense

end
-- ==== Proof.HiddenArray.lean ====
/-
  The array the first kernel leaves: the rectified dense stage of the whole arrays it was given.

  The grid has ten points; point `t` reads rows `10000·t … 10000·t + 9999` of the aggregated and the root features,
  the whole of both weight matrices and of the bias row, and writes back the same rows of the result.  Row `p` of the
  block it stores is row `10000·t + p` of the rectified stage of the whole arrays, because a row of that stage
  depends on the same row of the features only.  The ten blocks of rows tile the result, so after the last point the
  result array is that stage, entry by entry.
-/
import proofs.«163490_j22548578304372_1_alg».proof.Proof.Gen.KernelIdeal.Frame
import proofs.«163490_j22548578304372_1_alg».proof.Proof.HiddenPayload

noncomputable section

open scoped BigOperators

namespace Cert.KernelIdeal.Dense

open Idealize.ShloMosaic Idealize.ShloMosaic.TcCoe Idealize.ShloMosaic.ValueIdx Idealize.ShloMosaic.Pipeline Cert.KernelIdeal Cert.KernelIdeal.Gen

variable (V : (c : Dev nD) → (b : Ref sig .tc) → Buf (Elt Ideal) ((c : Thread nD τ).loc b))

/-- The rectified stage of the arrays the first kernel's region finds: aggregated features `%24`, root features the
    first argument, the two weight matrices, the bias as a one-row array. -/
def hiddenOf (c : Dev nD) : S100000x32.Idx → EReal :=
  Cert.Sage.hidden (V c main_v24) (V c main_arg0) (V c main_arg2) (V c main_arg3) (fun q => V c main_v25 (ix2 (0 : Fin 1) q))

theorem origin2 : (![0, 0] : Fin 2 → Nat) = fun _ => 0 := funext fun a => by fin_cases a <;> rfl

/-- The block index maps over the grid: the feature and result windows move down the rows with the point, the weight
    and bias windows stay. -/
theorem blockIdx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 10 :=
  (by decide +kernel : ∀ t : Fin grid0.N, _)

/-- Row `p` of point `t`'s block is row `10000·t + p` of the array. -/
def rowAt0 (t : Fin cfg0.N) (p : Fin 10000) : Fin 100000 :=
  ⟨t.val * 10000 + p.val, by have := (blockIdx0 t).2.2.2.2.2.2.2.2.2.2.2.2; have := p.isLt; omega⟩

/-- What point `t` writes back is its block of rows of the rectified stage. -/
theorem flushed_hidden (c : Dev nD) (t : Fin cfg0.N) :
    (dat0 V c).flushed 5 t = ((cfg0.win 5).blk t).view.read (Elt Ideal) (hiddenOf V c) := by
  show (cfg0.win 5).cut (grid0.coords t) ((dat0 V c).after 5 t) = _
  rw [after0_5]
  unfold out0_5
  rw [View.canon_unit_zero origin2]
  simp only [View.ld_unit_zero (S := S10000x2) origin2, View.ld_unit_zero (S := S2x32) origin2,
    View.ld_unit_zero (S := S1x32) origin2]
  obtain ⟨e00, e01, e10, e11, e20, e21, e30, e31, e40, e41, e50, e51, ht⟩ := blockIdx0 t
  funext j
  obtain ⟨p, q, rfl⟩ : ∃ (p : Fin 10000) (q : Fin 32), j = ix2 p q := ⟨j 0, j 1, eq_ix2 j⟩
  refine (pay_hidden (iblk0 V c 0 t) (iblk0 V c 1 t) (iblk0 V c 2 t) (iblk0 V c 3 t) (iblk0 V c 4 t) p q).trans ?_
  show _ = hiddenOf V c (((cfg0.win 5).blk t).view.emb (ix2 p q))
  have h5 : ((cfg0.win 5).blk t).view.emb (ix2 p q) = ix2 (rowAt0 t p) q := by
    funext a; apply Fin.ext
    match a with
    | ⟨0, _⟩ => show win0_5.index t (0 : Fin 2) * 10000 + 1 * p.val = t.val * 10000 + p.val; omega
    | ⟨1, _⟩ => show win0_5.index t (1 : Fin 2) * 32 + 1 * q.val = q.val; omega
  rw [h5]
  unfold hiddenOf
  rw [Cert.Sage.hidden_ix2]
  refine congrArg₂ max ?_ rfl
  unfold Cert.Sage.affine
  refine congrArg₂ (· + ·) (congrArg₂ (· + ·) (Finset.sum_congr rfl fun k _ => congrArg₂ (· * ·) ?_ ?_)
    (Finset.sum_congr rfl fun k _ => congrArg₂ (· * ·) ?_ ?_)) ?_
  · show V c main_v24 (((cfg0.win 0).blk t).view.emb (ix2 p k)) = V c main_v24 (ix2 (rowAt0 t p) k)
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 2 + 1 * k.val = k.val; omega
  · show V c main_arg2 (((cfg0.win 2).blk t).view.emb (ix2 k q)) = V c main_arg2 (ix2 k q)
    refine congrArg _ (funext fun a => Fin.ext ?_)
    match a with
    | ⟨0, _⟩ => show win0_2.index t (0 : Fin 2) * 2 + 1 * k.val = k.val; omega
    | ⟨1, _⟩ => show win0_2.index t (1 : Fin 2) * 32 + 1 * q.val = q.val; omega
  · show V c main_arg0 (((cfg0.win 1).blk t).view.emb (ix2 p k)) = V c main_arg0 (ix2 (rowAt0 t p) k)
    refine congrArg _ (funext fun a => Fin.ext ?_)
    match a with
    | ⟨0, _⟩ => show win0_1.index t (0 : Fin 2) * 10000 + 1 * p.val = t.val * 10000 + p.val; omega
    | ⟨1, _⟩ => show win0_1.index t (1 : Fin 2) * 2 + 1 * k.val = k.val; omega
  · show V c main_arg3 (((cfg0.win 3).blk t).view.emb (ix2 k q)) = V c main_arg3 (ix2 k q)
    refine congrArg _ (funext fun a => Fin.ext ?_)
    match a with
    | ⟨0, _⟩ => show win0_3.index t (0 : Fin 2) * 2 + 1 * k.val = k.val; omega
    | ⟨1, _⟩ => show win0_3.index t (1 : Fin 2) * 32 + 1 * q.val = q.val; omega
  · show V c main_v25 (((cfg0.win 4).blk t).view.emb (ix2 (0 : Fin 1) q)) = V c main_v25 (ix2 (0 : Fin 1) q)
    refine congrArg _ (funext fun a => Fin.ext ?_)
    match a with
    | ⟨0, _⟩ => show win0_4.index t (0 : Fin 2) * 1 + 1 * 0 = 0; omega
    | ⟨1, _⟩ => show win0_4.index t (1 : Fin 2) * 32 + 1 * q.val = q.val; omega

/-- An entry of the result array lies in point `t`'s block exactly when its coordinates lie in the block's ranges. -/
theorem mem_block0 (t : Fin cfg0.N) (i : S100000x32.Idx) :
    i ∈ ((cfg0.win 5).blk t).view.set ↔ ∀ a : Fin 2, win0_5.index t a * S10000x32.size a ≤ (i a).val
      ∧ (i a).val < win0_5.index t a * S10000x32.size a + S10000x32.size a := by
  show i ∈ ((View.whole main_v26).slice (win0_5.rect t)).set ↔ _
  rw [View.set_slice_whole, Rect.mem_set_unit]
  exact Iff.rfl

/-- Every entry of the result is in the block of the point its row selects. -/
theorem cover0 (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  have hN : cfg0.N = 10 := N_0
  let t : Fin cfg0.N := ⟨(i 0).val / 10000, by rw [hN]; omega⟩
  obtain ⟨-, -, -, -, -, -, -, -, -, -, e50, e51, -⟩ := blockIdx0 t
  have ht : t.val = (i 0).val / 10000 := rfl
  refine ⟨t, flush0_5 t, ?_⟩
  rw [mem_block0]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 32 ≤ (i 1).val ∧ (i 1).val < win0_5.index t (1 : Fin 2) * 32 + 32; omega

/-- After the last point the result array is the rectified stage of the arrays the region found. -/
theorem hidden_array (c : Dev nD) : (dat0 V c).arrAt 5 cfg0.N = hiddenOf V c :=
  (dat0 V c).arrAt_eq_of_cover 5 (hiddenOf V c) (fun t _ => flushed_hidden V c t) (cover0)

end Cert.KernelIdeal.Dense

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LogitsPayload.lean ====
/-
  What the second kernel's body stores, entry by entry.

  On a block of 10000 rows the body forms `y = agg · wl + root · wr + bias` as the first kernel does, then for each row
  its greatest entry `t` (a maximum folded from −∞ along the row, kept as a one-column array and spread back across
  the row), the shifted row `z = y − t`, the logarithm of the row sum of `exp z` (again kept as one column and spread
  back), and stores `z − log Σ exp z`: the log-softmax of row `p` of `y`, which depends on that row only.
-/
import proofs.«163490_j22548578304372_1_alg».proof.Proof.Gen.KernelIdeal.Skeleton
import proofs.«163490_j22548578304372_1_alg».proof.Proof.Spec
import proofs.«163490_j22548578304372_1_alg».proof.Proof.LibPlainDot
import proofs.«163490_j22548578304372_1_alg».proof.Proof.LibKeepdims
import Idealize.ShloMosaic.Lib.Pipeline.Value
import Idealize.ShloMosaic.Lib.ValueLayout

noncomputable section

open scoped BigOperators

namespace Cert.KernelIdeal.Dense

open Idealize.ShloMosaic Idealize.ShloMosaic.ValueIdx Cert.KernelIdeal Cert.KernelIdeal.Gen

/-- The second kernel's contraction is a plain `[10000, 32] × [32, 2]` product. -/
theorem plain1 : Cert.LibPlainDot.Plain dot_S10000x32_S32x2_S10000x2_1_0_0_1_n_n := ⟨rfl, rfl, rfl, rfl, rfl, rfl⟩

/-- The block `y = agg · wl + root · wr + bias` before the softmax. -/
def pre (x0 x1 : Vec Ideal S10000x32 .f32) (x2 x3 : Vec Ideal S32x2 .f32) (x4 : Vec Ideal S1x2 .f32) : FVec Ideal S10000x2 .f32 :=
  addf (addf
      (matmul dot_S10000x32_S32x2_S10000x2_1_0_0_1_n_n none
        (truncf .bf16 (shapeCast S10000x32 x0 shapeCasts_S10000x32_S10000x32) bitsLt_bf16_f32) (truncf .bf16 x2 bitsLt_bf16_f32)
        (constant S10000x2 .f32 0x00000000#32))
      (matmul dot_S10000x32_S32x2_S10000x2_1_0_0_1_n_n none
        (truncf .bf16 (shapeCast S10000x32 x1 shapeCasts_S10000x32_S10000x32) bitsLt_bf16_f32) (truncf .bf16 x3 bitsLt_bf16_f32)
        (constant S10000x2 .f32 0x00000000#32)))
    (broadcastTo S10000x2 (shapeCast S1x2 x4 shapeCasts_S1x2_S1x2) broadcasts_S1x2_S10000x2)

/-- Each row's greatest entry, spread back across the row. -/
def rowMax (y : FVec Ideal S10000x2 .f32) : FVec Ideal S10000x2 .f32 :=
  broadcastTo S10000x2
    (shapeCast S10000x1 (multiReduction .maximumf [1] S10000 y 0xFF800000#32 reduces_S10000x2_S10000 (.inl rfl) rfl)
      shapeCasts_S10000_S10000x1)
    broadcasts_S10000x1_S10000x2

/-- The logarithm of each row's sum of exponentials, spread back across the row. -/
def logSumExp (z : FVec Ideal S10000x2 .f32) : FVec Ideal S10000x2 .f32 :=
  broadcastTo S10000x2
    (log (shapeCast S10000x1 (multiReduction .add [1] S10000 (exp z) 0x00000000#32 reduces_S10000x2_S10000 (.inl rfl) rfl)
      shapeCasts_S10000_S10000x1))
    broadcasts_S10000x1_S10000x2

/-- The stored block in those phases. -/
theorem pay_phases (x0 x1 : Vec Ideal S10000x32 .f32) (x2 x3 : Vec Ideal S32x2 .f32) (x4 : Vec Ideal S1x2 .f32) :
    k1_pay1 (F := Ideal) x0 x1 x2 x3 x4
      = subf (subf (pre x0 x1 x2 x3 x4) (rowMax (pre x0 x1 x2 x3 x4)))
          (logSumExp (subf (pre x0 x1 x2 x3 x4) (rowMax (pre x0 x1 x2 x3 x4)))) := rfl

/-- Entry `(p, c)` of `y`. -/
theorem pre_apply (x0 x1 : Vec Ideal S10000x32 .f32) (x2 x3 : Vec Ideal S32x2 .f32) (x4 : Vec Ideal S1x2 .f32)
    (p : Fin 10000) (c : Fin 2) :
    pre x0 x1 x2 x3 x4 (ix2 p c) = Cert.Sage.affine x0 x1 x2 x3 (fun q => x4 (ix2 (0 : Fin 1) q)) p c := by
  unfold pre Cert.Sage.affine
  refine congrArg₂ (· + ·) (congrArg₂ (· + ·) ?_ ?_) ?_
  · refine (Ideal.matmul_constant_zero_apply _ none _ _ (ix2 p c)).trans ?_
    refine Eq.trans ?_ (plain1.sum_eq x0 x2 p c)
    rw [shapeCast_self]; rfl
  · refine (Ideal.matmul_constant_zero_apply _ none _ _ (ix2 p c)).trans ?_
    refine Eq.trans ?_ (plain1.sum_eq x1 x3 p c)
    rw [shapeCast_self]; rfl
  · exact (broadcastTo_1b_ab_apply _ broadcasts_S1x2_S10000x2 p c).trans (congrFun (shapeCast_self x4 _) _)

/-- The spread-back maximum at `(p, c)` is row `p`'s greatest entry. -/
theorem rowMax_apply (y : FVec Ideal S10000x2 .f32) (p : Fin 10000) (c : Fin 2) :
    rowMax y (ix2 p c) = Cert.Sage.rowTop (fun k : Fin 2 => y (ix2 p k)) := by
  unfold rowMax Cert.Sage.rowTop
  refine (Cert.LibKeepdims.broadcastTo_a1_ab_apply _ broadcasts_S10000x1_S10000x2 p c).trans ?_
  refine (Cert.LibKeepdims.shapeCast_a_a1_apply _ shapeCasts_S10000_S10000x1 p (0 : Fin 1)).trans ?_
  refine (Ideal.multiReduction_maximumf_single y 0xFF800000#32 reduces_S10000x2_S10000 (.inl rfl) rfl (ix1 p)).trans ?_
  refine congrArg (Finset.fold max _ · _) (funext fun k => congrArg y ?_)
  funext ax
  apply Fin.ext
  match ax with
  | ⟨0, _⟩ => rfl
  | ⟨1, _⟩ => rfl

/-- The spread-back logarithm at `(p, c)` is the logarithm of row `p`'s sum of exponentials. -/
theorem logSumExp_apply (z : FVec Ideal S10000x2 .f32) (p : Fin 10000) (c : Fin 2) :
    logSumExp z (ix2 p c) = Ideal.log (∑ k : Fin 2, Ideal.exp (z (ix2 p k))) := by
  unfold logSumExp
  refine (Cert.LibKeepdims.broadcastTo_a1_ab_apply _ broadcasts_S10000x1_S10000x2 p c).trans ?_
  show Ideal.log (shapeCast S10000x1 _ shapeCasts_S10000_S10000x1 (ix2 p (0 : Fin 1))) = _
  refine congrArg Ideal.log ?_
  refine (Cert.LibKeepdims.shapeCast_a_a1_apply _ shapeCasts_S10000_S10000x1 p (0 : Fin 1)).trans ?_
  exact Cert.LibKeepdims.multiReduction_add_rows_apply (exp z) reduces_S10000x2_S10000 (.inl rfl) rfl p

/-- Entry `(p, c)` of the block the second kernel stores. -/
theorem pay_logits (x0 x1 : Vec Ideal S10000x32 .f32) (x2 x3 : Vec Ideal S32x2 .f32) (x4 : Vec Ideal S1x2 .f32)
    (p : Fin 10000) (c : Fin 2) :
    k1_pay1 (F := Ideal) x0 x1 x2 x3 x4 (ix2 p c)
      = Cert.Sage.logSoftmaxRow (Cert.Sage.affine x0 x1 x2 x3 (fun q => x4 (ix2 (0 : Fin 1) q)) p) c := by
  rw [pay_phases]
  have hy : (fun k : Fin 2 => pre x0 x1 x2 x3 x4 (ix2 p k)) = Cert.Sage.affine x0 x1 x2 x3 (fun q => x4 (ix2 (0 : Fin 1) q)) p :=
    funext fun k => pre_apply x0 x1 x2 x3 x4 p k
  unfold Cert.Sage.logSoftmaxRow
  refine congrArg₂ (· - ·) (congrArg₂ (· - ·) (pre_apply x0 x1 x2 x3 x4 p c) ((rowMax_apply _ p c).trans (congrArg _ hy))) ?_
  refine (logSumExp_apply _ p c).trans (congrArg Ideal.log (Finset.sum_congr rfl fun k _ => congrArg Ideal.exp ?_))
  exact congrArg₂ (· - ·) (pre_apply x0 x1 x2 x3 x4 p k) ((rowMax_apply _ p k).trans (congrArg _ hy))

end Cert.KernelIdeal.Dense

end
-- ==== Proof.LogitsArray.lean ====
/-
  The array the second kernel leaves: the row-wise log-softmax stage of the whole arrays it was given.

  As for the first kernel the grid has ten points, point `t` reading rows `10000·t … 10000·t + 9999` of the aggregated
  hidden features and of the hidden features themselves, the whole weight matrices and bias row, and writing back the
  same rows of the result.  The log-softmax of a row of `agg · wl + h · wr + b` depends on that row of `agg` and `h`
  only, so row `p` of the stored block is row `10000·t + p` of the stage on the whole arrays; the ten blocks tile the
  result.
-/
import proofs.«163490_j22548578304372_1_alg».proof.Proof.Gen.KernelIdeal.Frame
import proofs.«163490_j22548578304372_1_alg».proof.Proof.LogitsPayload

noncomputable section

open scoped BigOperators

namespace Cert.KernelIdeal.Dense

open Idealize.ShloMosaic Idealize.ShloMosaic.TcCoe Idealize.ShloMosaic.ValueIdx Idealize.ShloMosaic.Pipeline Cert.KernelIdeal Cert.KernelIdeal.Gen

variable (V : (c : Dev nD) → (b : Ref sig .tc) → Buf (Elt Ideal) ((c : Thread nD τ).loc b))

/-- The log-softmax stage of the arrays the second kernel's region finds: aggregated hidden features `%38`, hidden
    features `%26`, the two weight matrices, the bias as a one-row array. -/
def logitsOf (c : Dev nD) : S100000x2.Idx → EReal :=
  Cert.Sage.logits (V c main_v38) (V c main_v26) (V c main_arg5) (V c main_arg6) (fun q => V c main_v39 (ix2 (0 : Fin 1) q))

theorem origin2' : (![0, 0] : Fin 2 → Nat) = fun _ => 0 := funext fun a => by fin_cases a <;> rfl

/-- The block index maps over the grid: the feature and result windows move down the rows with the point, the weight
    and bias windows stay. -/
theorem blockIdx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 10 :=
  (by decide +kernel : ∀ t : Fin grid1.N, _)

/-- Row `p` of point `t`'s block is row `10000·t + p` of the array. -/
def rowAt1 (t : Fin cfg1.N) (p : Fin 10000) : Fin 100000 :=
  ⟨t.val * 10000 + p.val, by have := (blockIdx1 t).2.2.2.2.2.2.2.2.2.2.2.2; have := p.isLt; omega⟩

/-- What point `t` writes back is its block of rows of the log-softmax stage. -/
theorem flushed_logits (c : Dev nD) (t : Fin cfg1.N) :
    (dat1 V c).flushed 5 t = ((cfg1.win 5).blk t).view.read (Elt Ideal) (logitsOf V c) := by
  show (cfg1.win 5).cut (grid1.coords t) ((dat1 V c).after 5 t) = _
  rw [after1_5]
  unfold out1_5
  rw [View.canon_unit_zero origin2']
  simp only [View.ld_unit_zero (S := S10000x32) origin2', View.ld_unit_zero (S := S32x2) origin2',
    View.ld_unit_zero (S := S1x2) origin2']
  obtain ⟨e00, e01, e10, e11, e20, e21, e30, e31, e40, e41, e50, e51, ht⟩ := blockIdx1 t
  funext j
  obtain ⟨p, q, rfl⟩ : ∃ (p : Fin 10000) (q : Fin 2), j = ix2 p q := ⟨j 0, j 1, eq_ix2 j⟩
  refine (pay_logits (iblk1 V c 0 t) (iblk1 V c 1 t) (iblk1 V c 2 t) (iblk1 V c 3 t) (iblk1 V c 4 t) p q).trans ?_
  show _ = logitsOf V c (((cfg1.win 5).blk t).view.emb (ix2 p q))
  have h5 : ((cfg1.win 5).blk t).view.emb (ix2 p q) = ix2 (rowAt1 t p) q := by
    funext a; apply Fin.ext
    match a with
    | ⟨0, _⟩ => show win1_5.index t (0 : Fin 2) * 10000 + 1 * p.val = t.val * 10000 + p.val; omega
    | ⟨1, _⟩ => show win1_5.index t (1 : Fin 2) * 2 + 1 * q.val = q.val; omega
  rw [h5]
  unfold logitsOf
  rw [Cert.Sage.logits_ix2]
  refine congrArg (Cert.Sage.logSoftmaxRow · q) (funext fun r => ?_)
  unfold Cert.Sage.affine
  refine congrArg₂ (· + ·) (congrArg₂ (· + ·) (Finset.sum_congr rfl fun k _ => congrArg₂ (· * ·) ?_ ?_)
    (Finset.sum_congr rfl fun k _ => congrArg₂ (· * ·) ?_ ?_)) ?_
  · show V c main_v38 (((cfg1.win 0).blk t).view.emb (ix2 p k)) = V c main_v38 (ix2 (rowAt1 t p) k)
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 32 + 1 * k.val = k.val; omega
  · show V c main_arg5 (((cfg1.win 2).blk t).view.emb (ix2 k r)) = V c main_arg5 (ix2 k r)
    refine congrArg _ (funext fun a => Fin.ext ?_)
    match a with
    | ⟨0, _⟩ => show win1_2.index t (0 : Fin 2) * 32 + 1 * k.val = k.val; omega
    | ⟨1, _⟩ => show win1_2.index t (1 : Fin 2) * 2 + 1 * r.val = r.val; omega
  · show V c main_v26 (((cfg1.win 1).blk t).view.emb (ix2 p k)) = V c main_v26 (ix2 (rowAt1 t p) k)
    refine congrArg _ (funext fun a => Fin.ext ?_)
    match a with
    | ⟨0, _⟩ => show win1_1.index t (0 : Fin 2) * 10000 + 1 * p.val = t.val * 10000 + p.val; omega
    | ⟨1, _⟩ => show win1_1.index t (1 : Fin 2) * 32 + 1 * k.val = k.val; omega
  · show V c main_arg6 (((cfg1.win 3).blk t).view.emb (ix2 k r)) = V c main_arg6 (ix2 k r)
    refine congrArg _ (funext fun a => Fin.ext ?_)
    match a with
    | ⟨0, _⟩ => show win1_3.index t (0 : Fin 2) * 32 + 1 * k.val = k.val; omega
    | ⟨1, _⟩ => show win1_3.index t (1 : Fin 2) * 2 + 1 * r.val = r.val; omega
  · show V c main_v39 (((cfg1.win 4).blk t).view.emb (ix2 (0 : Fin 1) r)) = V c main_v39 (ix2 (0 : Fin 1) r)
    refine congrArg _ (funext fun a => Fin.ext ?_)
    match a with
    | ⟨0, _⟩ => show win1_4.index t (0 : Fin 2) * 1 + 1 * 0 = 0; omega
    | ⟨1, _⟩ => show win1_4.index t (1 : Fin 2) * 2 + 1 * r.val = r.val; omega

/-- An entry of the result array lies in point `t`'s block exactly when its coordinates lie in the block's ranges. -/
theorem mem_block1 (t : Fin cfg1.N) (i : S100000x2.Idx) :
    i ∈ ((cfg1.win 5).blk t).view.set ↔ ∀ a : Fin 2, win1_5.index t a * S10000x2.size a ≤ (i a).val
      ∧ (i a).val < win1_5.index t a * S10000x2.size a + S10000x2.size a := by
  show i ∈ ((View.whole main_v40).slice (win1_5.rect t)).set ↔ _
  rw [View.set_slice_whole, Rect.mem_set_unit]
  exact Iff.rfl

/-- Every entry of the result is in the block of the point its row selects. -/
theorem cover1 (i : S100000x2.Idx) : ∃ t : Fin cfg1.N, (cfg1.win 5).flush t = true ∧ i ∈ ((cfg1.win 5).blk t).view.set := by
  have hi0 : (i 0).val < 100000 := (i 0).isLt
  have hi1 : (i 1).val < 2 := (i 1).isLt
  have hN : cfg1.N = 10 := N_1
  let t : Fin cfg1.N := ⟨(i 0).val / 10000, by rw [hN]; omega⟩
  obtain ⟨-, -, -, -, -, -, -, -, -, -, e50, e51, -⟩ := blockIdx1 t
  have ht : t.val = (i 0).val / 10000 := rfl
  refine ⟨t, flush1_5 t, ?_⟩
  rw [mem_block1]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 2 ≤ (i 1).val ∧ (i 1).val < win1_5.index t (1 : Fin 2) * 2 + 2; omega

/-- After the last point the result array is the log-softmax stage of the arrays the region found. -/
theorem logits_array (c : Dev nD) : (dat1 V c).arrAt 5 cfg1.N = logitsOf V c :=
  (dat1 V c).arrAt_eq_of_cover 5 (logitsOf V c) (fun t _ => flushed_logits V c t) (cover1)

end Cert.KernelIdeal.Dense

end
-- ==== Proof.RefDense.lean ====
/-
  The reference's two dense stages, read entry by entry.

  The reference forms each stage on the whole arrays: two contractions with the weight matrices, added, plus the bias
  broadcast down the rows; the first stage then takes the maximum with zero, the second a row-wise log-softmax (each
  row's maximum — a fold of `max` from −∞ along the row, taken once more against −∞, which changes nothing —, the
  shifted entries, the logarithm of the row sum of their exponentials started from zero).  Entry by entry these are the
  rectified stage and the log-softmax stage of the specification, of the aggregated features and the features the
  reference computed before them.
-/
import proofs.«163490_j22548578304372_1_alg».proof.Proof.ReadPatched
import proofs.«163490_j22548578304372_1_alg».proof.Proof.Spec
import Idealize.ShloMosaic.PureOps.Reduce

noncomputable section

open scoped BigOperators

namespace Cert.ReferenceIdeal.Dense

open Idealize.ShloMosaic Idealize.ShloMosaic.ValueIdx Cert.ReferenceIdeal Cert.ReferenceIdeal.ReadP
open Cert.ReferenceIdeal.Facts₀ Cert.ReferenceIdeal.Facts

variable (x0 : (⟨S100000x2, .f32⟩ : BufTy).Contents (Elt Ideal)) (x1 : (⟨S2x2500000, .i32⟩ : BufTy).Contents (Elt Ideal))
  (x2 x3 : (⟨S2x32, .f32⟩ : BufTy).Contents (Elt Ideal)) (x4 : (⟨S32, .f32⟩ : BufTy).Contents (Elt Ideal))
  (x5 x6 : (⟨S32x2, .f32⟩ : BufTy).Contents (Elt Ideal)) (x7 : (⟨S2, .f32⟩ : BufTy).Contents (Elt Ideal))

/-- The reference's hidden features are the rectified stage of its aggregated input features and the input features. -/
theorem hidden_eq :
    val_main_v31 (F := Ideal) x0 x1 x2 x3 x4
      = Cert.Sage.hidden (val_main_v24 (F := Ideal) x0 x1) x0 x2 x3 (fun q => x4 (ix1 q)) := by
  funext j
  obtain ⟨p, c, rfl⟩ : ∃ (p : Fin 100000) (c : Fin 32), j = ix2 p c := ⟨j 0, j 1, eq_ix2 j⟩
  rw [Cert.Sage.hidden_ix2, val_main_v31_apply, val_main_call0_v0_apply, val_main_call0_cst_apply, val_main_v30_apply,
    val_main_v29_apply, val_main_v28_apply, val_main_v27_apply, val_main_v26_apply, val_main_v25_apply]
  have e1 : ∀ k : Fin 2, lidx_main_v25 (ix2 p c) k = ix2 p k := fun k => funext fun a => Fin.ext (by
    match a with | ⟨0, _⟩ => rfl | ⟨1, _⟩ => rfl)
  have e2 : ∀ k : Fin 2, ridx_main_v25 (ix2 p c) k = ix2 k c := fun k => funext fun a => Fin.ext (by
    match a with | ⟨0, _⟩ => rfl | ⟨1, _⟩ => rfl)
  have e3 : ∀ k : Fin 2, lidx_main_v26 (ix2 p c) k = ix2 p k := fun k => funext fun a => Fin.ext (by
    match a with | ⟨0, _⟩ => rfl | ⟨1, _⟩ => rfl)
  have e4 : ∀ k : Fin 2, ridx_main_v26 (ix2 p c) k = ix2 k c := fun k => funext fun a => Fin.ext (by
    match a with | ⟨0, _⟩ => rfl | ⟨1, _⟩ => rfl)
  have e5 : idx_main_v28 (idx_main_v29 (ix2 p c)) = ix1 c := funext fun a => Fin.ext (by
    match a with | ⟨0, _⟩ => rfl)
  simp only [e1, e2, e3, e4, e5]
  rfl

/-- The array the reference hands to its log-softmax: `agg · wl + h · wr + b` of its aggregated hidden features and
    its hidden features, entry `(p, c)`. -/
theorem pre_apply (p : Fin 100000) (c : Fin 2) :
    val_main_v49 (F := Ideal) x0 x1 x2 x3 x4 x5 x6 x7 (ix2 p c)
      = Cert.Sage.affine (val_main_v43 (F := Ideal) x0 x1 x2 x3 x4) (val_main_v31 (F := Ideal) x0 x1 x2 x3 x4) x5 x6 (fun q => x7 (ix1 q)) p c := by
  rw [val_main_v49_apply, val_main_v48_apply, val_main_v47_apply, val_main_v46_apply, val_main_v45_apply, val_main_v44_apply]
  have e1 : ∀ k : Fin 32, lidx_main_v44 (ix2 p c) k = ix2 p k := fun k => funext fun a => Fin.ext (by
    match a with | ⟨0, _⟩ => rfl | ⟨1, _⟩ => rfl)
  have e2 : ∀ k : Fin 32, ridx_main_v44 (ix2 p c) k = ix2 k c := fun k => funext fun a => Fin.ext (by
    match a with | ⟨0, _⟩ => rfl | ⟨1, _⟩ => rfl)
  have e3 : ∀ k : Fin 32, lidx_main_v45 (ix2 p c) k = ix2 p k := fun k => funext fun a => Fin.ext (by
    match a with | ⟨0, _⟩ => rfl | ⟨1, _⟩ => rfl)
  have e4 : ∀ k : Fin 32, ridx_main_v45 (ix2 p c) k = ix2 k c := fun k => funext fun a => Fin.ext (by
    match a with | ⟨0, _⟩ => rfl | ⟨1, _⟩ => rfl)
  have e5 : idx_main_v47 (idx_main_v48 (ix2 p c)) = ix1 c := funext fun a => Fin.ext (by
    match a with | ⟨0, _⟩ => rfl)
  simp only [e1, e2, e3, e4, e5]
  rfl

/-- The row the log-softmax sees at row `p`. -/
abbrev preRow (p : Fin 100000) : Fin 2 → EReal :=
  Cert.Sage.affine (val_main_v43 (F := Ideal) x0 x1 x2 x3 x4) (val_main_v31 (F := Ideal) x0 x1 x2 x3 x4) x5 x6 (fun q => x7 (ix1 q)) p

theorem reduces_rows : S100000x2.Reduces [1] S100000 := by decide

/-- Row `p` of the array, as the reduction over the second axis enumerates it. -/
theorem lift_row (h : S100000x2.Reduces [1] S100000) (p : Fin 100000) (k : Fin 2) : h.lift (ix1 p) k = ix2 p k :=
  funext fun a => Fin.ext (by
    match a with | ⟨0, _⟩ => rfl | ⟨1, _⟩ => rfl)

/-- A host maximum reduction of a `[100000, 2]` array along its rows, at row `p`: the fold of `max` from the
    initial value over the row's two entries. -/
theorem host_rowmax (h : S100000x2.Reduces [1] S100000) (p : Fin 100000) (x : S100000x2.Idx → EReal) (init : S_.Idx → EReal) :
    Host.reduce (FloatOps.maximumf (F := Ideal) (φ := .f32)) x init reducesTo_S100000x2_S100000_d1 h_S_ (ix1 p)
      = (Finset.univ : Finset (Fin 2)).fold max (init (Shape.Idx.first h_S_)) (fun k => x (ix2 p k)) := by
  refine (Host.reduce_eq_fold_single (FloatOps.maximumf (F := Ideal) (φ := .f32)) x init reducesTo_S100000x2_S100000_d1 h h_S_
    (ix1 p)).trans ?_
  have hl : x ∘ h.lift (ix1 p) = fun k => x (ix2 p k) := funext fun k => congrArg x (lift_row h p k)
  rw [hl]
  rfl

/-- The reference's row maximum at row `p`: the fold of `max` from −∞ along the row. -/
theorem rowmax_apply_of (h : S100000x2.Reduces [1] S100000) (p : Fin 100000) :
    val_main_call1_v0 (F := Ideal) x0 x1 x2 x3 x4 x5 x6 x7 (ix1 p) = Cert.Sage.rowTop (preRow x0 x1 x2 x3 x4 x5 x6 x7 p) := by
  unfold val_main_call1_v0 Cert.Sage.rowTop
  refine (host_rowmax h p _ _).trans ?_
  have hrow : (fun k : Fin 2 => val_main_v49 (F := Ideal) x0 x1 x2 x3 x4 x5 x6 x7 (ix2 p k)) = preRow x0 x1 x2 x3 x4 x5 x6 x7 p :=
    funext fun k => pre_apply x0 x1 x2 x3 x4 x5 x6 x7 p k
  rw [hrow]
  rfl

theorem rowmax_apply (p : Fin 100000) :
    val_main_call1_v0 (F := Ideal) x0 x1 x2 x3 x4 x5 x6 x7 (ix1 p) = Cert.Sage.rowTop (preRow x0 x1 x2 x3 x4 x5 x6 x7 p) :=
  rowmax_apply_of x0 x1 x2 x3 x4 x5 x6 x7 reduces_rows p

/-- The shifted entry `(p, c)`: the entry less its row's greatest. -/
theorem shifted_apply (p : Fin 100000) (c : Fin 2) :
    val_main_call1_v5 (F := Ideal) x0 x1 x2 x3 x4 x5 x6 x7 (ix2 p c)
      = preRow x0 x1 x2 x3 x4 x5 x6 x7 p c - Cert.Sage.rowTop (preRow x0 x1 x2 x3 x4 x5 x6 x7 p) := by
  rw [val_main_call1_v5_apply, val_main_call1_v4_apply, val_main_call1_v3_apply, val_main_call1_v2_apply,
    val_main_call1_v1_apply, val_main_call1_cst_0_apply]
  have e1 : idx_main_call1_v3 (idx_main_call1_v4 (ix2 p c)) = ix1 p := funext fun a => Fin.ext (by
    match a with | ⟨0, _⟩ => rfl)
  rw [e1, rowmax_apply, pre_apply]
  exact congrArg (preRow x0 x1 x2 x3 x4 x5 x6 x7 p c - ·) (Cert.Sage.max_start_rowTop _)

/-- The logarithm of row `p`'s sum of exponentials, as the reference spreads it back across the row: the sum starts
    from the zero word, which adds nothing. -/
theorem logsum_apply (p : Fin 100000) (c : Fin 2) :
    val_main_call1_v10 (F := Ideal) x0 x1 x2 x3 x4 x5 x6 x7 (ix2 p c)
      = Ideal.log (∑ k : Fin 2, Ideal.exp (preRow x0 x1 x2 x3 x4 x5 x6 x7 p k - Cert.Sage.rowTop (preRow x0 x1 x2 x3 x4 x5 x6 x7 p))) := by
  have e1 : idx_main_call1_v8 (idx_main_call1_v10 (ix2 p c)) = ix1 p := funext fun a => Fin.ext (by
    match a with | ⟨0, _⟩ => rfl)
  have e2 : ∀ k : Fin 2, idx_main_call1_v7 (ix1 p) k = ix2 p k := fun k => funext fun a => Fin.ext (by
    match a with | ⟨0, _⟩ => rfl | ⟨1, _⟩ => rfl)
  refine (val_main_call1_v10_apply x0 x1 x2 x3 x4 x5 x6 x7 (ix2 p c)).trans ?_
  refine (val_main_call1_v9_apply x0 x1 x2 x3 x4 x5 x6 x7 _).trans ?_
  refine (Ideal.hostUnary_log_def _).trans ?_
  refine congrArg Ideal.log ?_
  refine (val_main_call1_v8_apply x0 x1 x2 x3 x4 x5 x6 x7 _).trans ?_
  rw [e1]
  refine (val_main_call1_v7_apply x0 x1 x2 x3 x4 x5 x6 x7 (ix1 p)).trans ?_
  refine (congrArg₂ (· + ·) Ideal.ofBits_zero_f32 (Finset.sum_congr rfl fun k _ => ?_)).trans (zero_add _)
  rw [e2 k]
  refine (val_main_call1_v6_apply x0 x1 x2 x3 x4 x5 x6 x7 _).trans ?_
  refine (Ideal.hostUnary_exp_def _).trans ?_
  exact congrArg Ideal.exp (shifted_apply x0 x1 x2 x3 x4 x5 x6 x7 p k)

/-- The reference's result, entry `(p, c)`: the log-softmax of row `p`. -/
theorem logits_eq :
    val_main_v50 (F := Ideal) x0 x1 x2 x3 x4 x5 x6 x7
      = Cert.Sage.logits (val_main_v43 (F := Ideal) x0 x1 x2 x3 x4) (val_main_v31 (F := Ideal) x0 x1 x2 x3 x4) x5 x6 (fun q => x7 (ix1 q)) := by
  funext j
  obtain ⟨p, c, rfl⟩ : ∃ (p : Fin 100000) (c : Fin 2), j = ix2 p c := ⟨j 0, j 1, eq_ix2 j⟩
  rw [Cert.Sage.logits_ix2]
  refine (val_main_v50_apply x0 x1 x2 x3 x4 x5 x6 x7 (ix2 p c)).trans ?_
  unfold Cert.Sage.logSoftmaxRow
  exact congrArg₂ (· - ·) (shifted_apply x0 x1 x2 x3 x4 x5 x6 x7 p c) (logsum_apply x0 x1 x2 x3 x4 x5 x6 x7 p c)

end Cert.ReferenceIdeal.Dense

end
-- ==== Proof.KernelValue.lean ====
/-
  The idealized kernel's result as a function of its arguments.

  Before the first kernel the host computes the mean aggregation of the input features exactly as the reference does
  (the same scatter-add, gather, clamp and division by the degree, operation by operation), so the first region finds
  the reference's aggregated features; what it leaves is the rectified stage of them, which is the reference's hidden
  features.  Between the kernels the host aggregates those hidden features, again with the reference's own operations,
  so the second region finds the reference's aggregated hidden features and its hidden features; what it leaves is the
  log-softmax stage of them, which is the reference's result.
-/
import proofs.«163490_j22548578304372_1_alg».proof.Proof.HiddenArray
import proofs.«163490_j22548578304372_1_alg».proof.Proof.LogitsArray
import proofs.«163490_j22548578304372_1_alg».proof.Proof.RefDense
import Idealize.ShloMosaic.Lib.StableHlo.Run
import Idealize.ShloMosaic.Lib.ValueLayout

set_option maxRecDepth 16384

noncomputable section

namespace Cert.KernelIdeal.Dense

open Idealize.ShloMosaic Idealize.ShloMosaic.TcCoe Idealize.ShloMosaic.ValueIdx Idealize.ShloMosaic.StableHlo
open Cert.KernelIdeal Cert.KernelIdeal.Gen

variable (m : (ℓ : Loc nD τ sig) → Buf (Elt Ideal) ℓ) (ρ : Dev nD → PrngReg) (c : Dev nD)

/-- The reference's aggregated input features, of the kernel's launch arrays. -/
abbrev refAgg1 : S100000x2.Idx → EReal :=
  Cert.ReferenceIdeal.ReadP.val_main_v24 (F := Ideal) (m ((c : Thread nD τ).loc main_arg0)) (m ((c : Thread nD τ).loc main_arg1))

/-- The reference's hidden features, of the kernel's launch arrays. -/
abbrev refHidden : S100000x32.Idx → EReal :=
  Cert.ReferenceIdeal.ReadP.val_main_v31 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The reference's aggregated hidden features, of the kernel's launch arrays. -/
abbrev refAgg2 : S100000x32.Idx → EReal :=
  Cert.ReferenceIdeal.ReadP.val_main_v43 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The reference's result, of the kernel's launch arrays. -/
abbrev refOut : S100000x2.Idx → EReal :=
  Cert.ReferenceIdeal.ReadP.val_main_v50 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-! ## What the first region finds -/

theorem entry0_agg : (V1 m ρ c main_v24 : S100000x2.Idx → EReal) = refAgg1 m c := by
  show StableHlo.after hostOps0 (W0 m ρ c) (Proc.devRef .tc main_v24) = _
  simp only [hostOps0]
  after_results_simp <;> rfl

theorem entry0_x : (V1 m ρ c main_arg0 : S100000x2.Idx → EReal) = m ((c : Thread nD τ).loc main_arg0) := by
  show StableHlo.after hostOps0 (W0 m ρ c) (Proc.devRef .tc main_arg0) = _
  simp only [hostOps0]
  after_results_simp <;> rfl

theorem entry0_wl : (V1 m ρ c main_arg2 : S2x32.Idx → EReal) = m ((c : Thread nD τ).loc main_arg2) := by
  show StableHlo.after hostOps0 (W0 m ρ c) (Proc.devRef .tc main_arg2) = _
  simp only [hostOps0]
  after_results_simp <;> rfl

theorem entry0_wr : (V1 m ρ c main_arg3 : S2x32.Idx → EReal) = m ((c : Thread nD τ).loc main_arg3) := by
  show StableHlo.after hostOps0 (W0 m ρ c) (Proc.devRef .tc main_arg3) = _
  simp only [hostOps0]
  after_results_simp <;> rfl

theorem entry0_b (q : Fin 32) :
    (V1 m ρ c main_v25 : S1x32.Idx → EReal) (ix2 (0 : Fin 1) q) = (m ((c : Thread nD τ).loc main_arg4) : S32.Idx → EReal) (ix1 q) := by
  have e : (V1 m ρ c main_v25 : S1x32.Idx → EReal)
      = shapeCast S1x32 (m ((c : Thread nD τ).loc main_arg4) : S32.Idx → EReal) shapeCasts_S32_S1x32 := by
    show StableHlo.after hostOps0 (W0 m ρ c) (Proc.devRef .tc main_v25) = _
    simp only [hostOps0]
    after_results_simp <;> rfl
  rw [e]
  exact shapeCast_a_1a_apply _ shapeCasts_S32_S1x32 (0 : Fin 1) q

/-- The first kernel leaves the reference's hidden features. -/
theorem hidden_kernel : (W2 m ρ c (Proc.devRef .tc main_v26) : S100000x32.Idx → EReal) = refHidden m c := by
  refine (W2_arr m ρ c 5).trans ((hidden_array (V1 m ρ) c).trans ?_)
  unfold hiddenOf
  have hb : (fun q : Fin 32 => (V1 m ρ c main_v25 : S1x32.Idx → EReal) (ix2 (0 : Fin 1) q))
      = fun q => (m ((c : Thread nD τ).loc main_arg4) : S32.Idx → EReal) (ix1 q) := funext fun q => entry0_b m ρ c q
  rw [entry0_agg, entry0_x, entry0_wl, entry0_wr, hb]
  exact (Cert.ReferenceIdeal.Dense.hidden_eq (m ((c : Thread nD τ).loc main_arg0)) (m ((c : Thread nD τ).loc main_arg1)) (m ((c : Thread nD τ).loc main_arg2)) (m ((c : Thread nD τ).loc main_arg3)) (m ((c : Thread nD τ).loc main_arg4))).symm

/-! ## What the second region finds -/

theorem between_src : (W2 m ρ c (Proc.devRef .tc main_v1) : S2500000.Idx → BitVec 32)
    = Cert.ReferenceIdeal.ReadP.val_main_v1 (F := Ideal) (m ((c : Thread nD τ).loc main_arg1)) := by
  refine (W2_of_ne m ρ c main_v1 (by decide)).trans ?_
  show StableHlo.after hostOps0 (W0 m ρ c) (Proc.devRef .tc main_v1) = _
  simp only [hostOps0]
  after_results_simp <;> rfl

theorem between_dst : (W2 m ρ c (Proc.devRef .tc main_v3) : S2500000.Idx → BitVec 32)
    = Cert.ReferenceIdeal.ReadP.val_main_v3 (F := Ideal) (m ((c : Thread nD τ).loc main_arg1)) := by
  refine (W2_of_ne m ρ c main_v3 (by decide)).trans ?_
  show StableHlo.after hostOps0 (W0 m ρ c) (Proc.devRef .tc main_v3) = _
  simp only [hostOps0]
  after_results_simp <;> rfl

theorem between_deg : (W2 m ρ c (Proc.devRef .tc main_v12) : S100000x1.Idx → EReal)
    = Cert.ReferenceIdeal.ReadP.val_main_v12 (F := Ideal) (m ((c : Thread nD τ).loc main_arg1)) := by
  refine (W2_of_ne m ρ c main_v12 (by decide)).trans ?_
  show StableHlo.after hostOps0 (W0 m ρ c) (Proc.devRef .tc main_v12) = _
  simp only [hostOps0]
  after_results_simp <;> rfl

theorem entry1_agg : (V3 m ρ c main_v38 : S100000x32.Idx → EReal) = refAgg2 m c := by
  show StableHlo.after hostOps1 (W2 m ρ c) (Proc.devRef .tc main_v38) = _
  simp only [hostOps1]
  after_results_simp
  rw [between_src, between_dst, between_deg, hidden_kernel]
  rfl

theorem entry1_h : (V3 m ρ c main_v26 : S100000x32.Idx → EReal) = refHidden m c := by
  show StableHlo.after hostOps1 (W2 m ρ c) (Proc.devRef .tc main_v26) = _
  simp only [hostOps1]
  after_results_simp
  exact hidden_kernel m ρ c

theorem entry1_wl : (V3 m ρ c main_arg5 : S32x2.Idx → EReal) = m ((c : Thread nD τ).loc main_arg5) :=
  ((A_eq1 (V3 m ρ) c 2).symm.trans (((dat1 (V3 m ρ) c).arrAt_in 2 rfl _).symm.trans (W4_arr m ρ c 2).symm)).trans
    (W4_main_arg5 m ρ c)

theorem entry1_wr : (V3 m ρ c main_arg6 : S32x2.Idx → EReal) = m ((c : Thread nD τ).loc main_arg6) :=
  ((A_eq1 (V3 m ρ) c 3).symm.trans (((dat1 (V3 m ρ) c).arrAt_in 3 rfl _).symm.trans (W4_arr m ρ c 3).symm)).trans
    (W4_main_arg6 m ρ c)

theorem entry1_b (q : Fin 2) :
    (V3 m ρ c main_v39 : S1x2.Idx → EReal) (ix2 (0 : Fin 1) q) = (m ((c : Thread nD τ).loc main_arg7) : S2.Idx → EReal) (ix1 q) := by
  have e : (V3 m ρ c main_v39 : S1x2.Idx → EReal)
      = shapeCast S1x2 (m ((c : Thread nD τ).loc main_arg7) : S2.Idx → EReal) shapeCasts_S2_S1x2 := by
    show StableHlo.after hostOps1 (W2 m ρ c) (Proc.devRef .tc main_v39) = _
    simp only [hostOps1]
    after_results_simp
    have h7 : W2 m ρ c (Proc.devRef .tc main_arg7) = m ((c : Thread nD τ).loc main_arg7) := by
      refine (W2_of_ne m ρ c main_arg7 (by decide)).trans ?_
      show StableHlo.after hostOps0 (W0 m ρ c) (Proc.devRef .tc main_arg7) = _
      simp only [hostOps0]
      after_results_simp <;> rfl
    rw [h7]
    rfl
  rw [e]
  exact shapeCast_a_1a_apply _ shapeCasts_S2_S1x2 (0 : Fin 1) q

/-- The second kernel leaves the reference's result. -/
theorem result_kernel : (W4 m ρ c (Proc.devRef .tc main_v40) : S100000x2.Idx → EReal) = refOut m c := by
  refine (W4_arr m ρ c 5).trans ((logits_array (V3 m ρ) c).trans ?_)
  unfold logitsOf
  have hb : (fun q : Fin 2 => (V3 m ρ c main_v39 : S1x2.Idx → EReal) (ix2 (0 : Fin 1) q))
      = fun q => (m ((c : Thread nD τ).loc main_arg7) : S2.Idx → EReal) (ix1 q) := funext fun q => entry1_b m ρ c q
  rw [entry1_agg, entry1_h, entry1_wl, entry1_wr, hb]
  exact (Cert.ReferenceIdeal.Dense.logits_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm

end Cert.KernelIdeal.Dense

end
-- ==== Proof.lean ====
/-
  A two-layer mean-aggregation graph network (two SAGEConv layers and a row-wise log-softmax) over 100000 nodes and
  2500000 edges: the kernel against its reference, over the extended reals.

  Both programs aggregate neighbour features on the host with the same operations (scatter-add of gathered rows over the
  destination nodes, divided by the clamped degree).  They differ in the dense stages: the kernel computes
  `agg · wl + root · wr + bias` block by block, 10000 rows per grid point, in two kernels — the first rectifying the
  result, the second taking the log-softmax of each row —, where the reference computes the same stages on the whole
  arrays.  A row of either stage depends on the same row of its inputs only, so the blocks of rows, which tile the
  arrays, assemble the reference's arrays entry by entry: the kernel's hidden features are the reference's, hence so
  are the aggregated hidden features, hence so is the result.  No law used here needs the inputs to be finite: sums
  of products, maxima, exponentials and logarithms are formed identically on both sides.

  The idealization rewrote no operation, so `preserves` is `True`.  The two kernel frames are the generated frame
  certificates; the reference's frame is its run with the result dropped.
-/
import proofs.«163490_j22548578304372_1_alg».proof.Defs
import proofs.«163490_j22548578304372_1_alg».proof.Proof.Gen.Kernel
import proofs.«163490_j22548578304372_1_alg».proof.Proof.Gen.Kernel.Frame
import proofs.«163490_j22548578304372_1_alg».proof.Proof.Gen.KernelIdeal
import proofs.«163490_j22548578304372_1_alg».proof.Proof.Gen.KernelIdeal.Frame
import proofs.«163490_j22548578304372_1_alg».proof.Proof.Gen.ReferenceIdeal
import proofs.«163490_j22548578304372_1_alg».proof.Proof.Gen.Pre_finite_inputs
import proofs.«163490_j22548578304372_1_alg».proof.Proof.RunPatched
import proofs.«163490_j22548578304372_1_alg».proof.Proof.ReadPatched
import proofs.«163490_j22548578304372_1_alg».proof.Proof.KernelRun
import proofs.«163490_j22548578304372_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The idealized kernel ends with its result array at the reference's last stage of the launch arrays; the reference
    ends with its result at the same stage of its own launch arrays, which agree with the kernel's. -/
theorem algebraic : Cert.algebraic_KernelIdeal_ReferenceIdeal := by
  intro m ρ m' ρ' _ hagree
  refine ⟨fun c => Cert.KernelIdeal.Dense.refOut m c, ?_, ?_⟩
  · exact (θ_run Cert.KernelIdeal.defs _ _).mono
      (fun r h c => ⟨(h c).1.trans (Cert.KernelIdeal.Dense.result_kernel m ρ c), (h c).2⟩)
      (Cert.KernelIdeal.Dense.run_result m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.ReadP.val_main_v50_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
